-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x1 : Shape := ⟨2, ![512, 1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S100000x512 .f32) (main_arg1 : IVec S2x3200000 32) (main_arg2 : FVec F S512x1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1 .f32 := Host.absf main_arg2
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  main_v8
-- ==== Kernel.lean ====
abbrev S100000x512 : Shape := ⟨2, ![100000, 512]⟩
abbrev S2x3200000 : Shape := ⟨2, ![2, 3200000]⟩
abbrev S512x1 : Shape := ⟨2, ![512, 1]⟩
abbrev S1x3200000 : Shape := ⟨2, ![1, 3200000]⟩
abbrev S3200000 : Shape := ⟨1, ![3200000]⟩
abbrev S100000x1 : Shape := ⟨2, ![100000, 1]⟩
abbrev S5000x512 : Shape := ⟨2, ![5000, 512]⟩
abbrev S5000x1 : Shape := ⟨2, ![5000, 1]⟩
abbrev S100000 : Shape := ⟨1, ![100000]⟩
abbrev S_ : Shape := ⟨0, ![]⟩
abbrev S3200000x1 : Shape := ⟨2, ![3200000, 1]⟩
abbrev S25000x128 : Shape := ⟨2, ![25000, 128]⟩
abbrev S1000x128 : Shape := ⟨2, ![1000, 128]⟩

abbrev nBuf : Space → Nat
  | .hbm => 58
  | .vmem => 13
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x1, .f32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S100000x1, .f32⟩
  | .hbm, ⟨8, _⟩ => ⟨S100000, .f32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000, .f32⟩
  | .hbm, ⟨46, _⟩ => ⟨S25000x128, .f32⟩
  | .hbm, ⟨47, _⟩ => ⟨S25000x128, .f32⟩
  | .hbm, ⟨48, _⟩ => ⟨S25000x128, .f32⟩
  | .hbm, ⟨49, _⟩ => ⟨S25000x128, .f32⟩
  | .hbm, ⟨50, _⟩ => ⟨S3200000, .f32⟩
  | .hbm, ⟨51, _⟩ => ⟨S_, .f32⟩
  | .hbm, ⟨52, _⟩ => ⟨S100000, .f32⟩
  | .hbm, ⟨53, _⟩ => ⟨S3200000x1, .i32⟩
  | .hbm, ⟨54, _⟩ => ⟨S100000, .f32⟩
  | .hbm, ⟨55, _⟩ => ⟨S100000, .f32⟩
  | .hbm, ⟨56, _⟩ => ⟨S100000, .f32⟩
  | .hbm, ⟨57, _⟩ => ⟨S100000, .f32⟩
  | .local _ .vmem, ⟨0, _⟩ => ⟨S5000x512, .f32⟩
  | .local _ .vmem, ⟨1, _⟩ => ⟨S5000x512, .f32⟩
  | .local _ .vmem, ⟨2, _⟩ => ⟨S512x1, .f32⟩
  | .local _ .vmem, ⟨3, _⟩ => ⟨S5000x1, .f32⟩
  | .local _ .vmem, ⟨4, _⟩ => ⟨S5000x1, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x512_S5000x512_0_0 : ∀ a, (![0, 0] : Fin 2 → Nat) a + S5000x512.size a ≤ S5000x512.size a
  h_S5000x512 : 0 < S5000x512.numel
  inb_S512x1_S512x1_0_0 : ∀ a, (![0, 0] : Fin 2 → Nat) a + S512x1.size a ≤ S512x1.size a
  h_S512x1 : 0 < S512x1.numel
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S3200000_S25000x128 : S3200000.ShapeCasts S25000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S25000x128_S3200000 : S25000x128.ShapeCasts S3200000
  dot_S5000x512_S512x1_S5000x1_1_0_0_1_n_n_wf : DotDims.WF S5000x512 S512x1 S5000x1 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S25000x128.size a
  hwx1_0 : ∀ i : grid1.Coords, EltTy.bits .f32 = 32 ∨ (Rect.block (s := S25000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S25000x128.size a
  hwx1_1 : ∀ i : grid1.Coords, EltTy.bits .f32 = 32 ∨ (Rect.block (s := S25000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S25000x128.size a
  hwx1_2 : ∀ i : grid1.Coords, EltTy.bits .f32 = 32 ∨ (Rect.block (s := S25000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S25000x128.size a
  hwx1_3 : ∀ i : grid1.Coords, EltTy.bits .f32 = 32 ∨ (Rect.block (s := S25000x128) S1000x128.size (cc1_transform_3 i) (hinb1_3 i)).WholeWords (EltTy.packing .f32)

variable [Facts₀]

def dot_S5000x512_S512x1_S5000x1_1_0_0_1_n_n : DotDims S5000x512 S512x1 S5000x1 where
  lhsContracting := [1]
  rhsContracting := [0]
  lhsNonContracting := [0]
  rhsNonContracting := [1]
  lhsBatch := []
  rhsBatch := []
  wf := dot_S5000x512_S512x1_S5000x1_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x1 : Shape := ⟨2, ![512, 1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩

abbrev nBuf : Space → Nat
  | .hbm => 59
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x1, .f32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S100000, .i32⟩
  | .hbm, ⟨8, _⟩ => ⟨S3300000, .i32⟩
  | .hbm, ⟨9, _⟩ => ⟨S3300000, .i32⟩
  | .hbm, ⟨10, _⟩ => ⟨S_, .f32⟩
  | .hbm, ⟨11, _⟩ => ⟨S3300000, .f32⟩
  | .hbm, ⟨12, _⟩ => ⟨S_, .f32⟩
  | .hbm, ⟨13, _⟩ => ⟨S100000, .f32⟩
  | .hbm, ⟨14, _⟩ => ⟨S3300000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x1, .f32⟩
  | .hbm, ⟨43, _⟩ => ⟨S3300000x1, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x1, .f32⟩
  | .hbm, ⟨53, _⟩ => ⟨S3300000x1, .f32⟩
  | .hbm, ⟨54, _⟩ => ⟨S_, .f32⟩
  | .hbm, ⟨55, _⟩ => ⟨S100000x1, .f32⟩
  | .hbm, ⟨56, _⟩ => ⟨S3300000x1, .i32⟩
  | .hbm, ⟨57, _⟩ => ⟨S100000x1, .f32⟩
  | .hbm, ⟨58, _⟩ => ⟨S100000, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S100000x1 : S_.BroadcastsInDim S100000x1 (![] : Fin 0 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x1_S100000x1_1_0_0_1_n_n_wf : DotDims.WF S100000x512 S512x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.LibGatherScatter.lean ====
/-
  Reading a host gather and a host accumulating scatter at an index, for the two index layouts that `x[idx]` and
  `segment_sum` lower to when the operand is a flat array [N] or a column [N, 1] and the indices are a column [E, 1].

  * A gather along axis 0 reads the operand at the start index, taken as a signed integer and clamped into [0, N - 1].
  * An accumulating scatter at the exact (ideal) instance leaves at element `i` the old element plus the sum of the
    updates whose index word, read as a signed integer and NOT clamped, is exactly `i`; an update whose index falls
    outside [0, N) lands nowhere.
  * A sum over a concatenated range [0, E + N) splits as the sum over [0, E) plus the sum over the shifted [0, N).
-/
import Idealize.ShloMosaic.PureOps.Ideal
import Idealize.ShloMosaic.Lib.ValueIdx
import Idealize.ShloMosaic.Lib.Pipeline.Value

noncomputable section

open scoped BigOperators

namespace Idealize.ShloMosaic.GatherScatterIdx

open Idealize.ShloMosaic Idealize.ShloMosaic.ValueIdx

/-! ## Rank-1 index sets and sums over them -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column index set [n, 1] is the sum over the row coordinate. -/
theorem sum_idxCol {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  exact Fin.sum_univ_one _

/-- A sum over [0, T) with T = E + N is the sum over [0, E) plus the sum over E + [0, N). -/
theorem sum_fin_split {M : Type*} [AddCommMonoid M] {E N T : Nat} (hT : E + N = T) (f : Fin T → M) :
    ∑ t, f t = (∑ e : Fin E, f ⟨e.val, by omega⟩) + ∑ n : Fin N, f ⟨E + n.val, by omega⟩ := by
  subst hT
  rw [Fin.sum_univ_add]
  rfl

/-! ## The gather of a flat array at a column of indices -/

section Gather
variable {α : Type}

/-- The dimension numbers of `x[idx]` for `x : [N]`, `idx : [E, 1]`, result `[E]`. -/
abbrev rowGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gather is the operand at index word `idx[e, 0]`, read signed and clamped into [0, N - 1]. -/
theorem gather_row_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (rowGather N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (rowGather N E wf).start j idx 0 + (rowGather N E wf).batchCoord j 0 + (rowGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather N E wf).startIndexMap from List.mem_singleton.mpr rfl)]
  have hsi : (rowGather N E wf).siIdx j ⟨List.idxOf (0 : Fin 1) (rowGather N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a column `x : [N, 1]`, `idx : [E, 1]`, result `[E, 1]`. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of the gathered column is the operand's row at index word `idx[e, 0]`, read signed and clamped. -/
theorem gather_col_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (colGather N E wf) x idx j
      = x (ix2 (⟨min (idx (ix2 (j 0) (0 : Fin 1))).toInt.toNat (N - 1), by omega⟩ : Fin N) (0 : Fin 1)) := by
  unfold Host.gather
  congr 1
  funext a
  match a with
  | ⟨0, _⟩ =>
    refine Fin.ext ?_
    show (colGather N E wf).start j idx 0 + (colGather N E wf).batchCoord j 0 + (colGather N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx j ⟨List.idxOf (0 : Fin 2) (colGather N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (_ : Fin 1) = _
    exact Subsingleton.elim _ _

end Gather

/-! ## The accumulating scatter into a flat array, and into a column, at a column of indices -/

section Scatter

/-- The dimension numbers of `segment_sum` into `x : [N]` at `idx : [E, 1]` with updates `[E]`. -/
abbrev rowScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `i` exactly when its index word, read signed, is `i`. -/
theorem resultIdx_row_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (rowScatter N E wf).resultIdx? j idx = some i ↔ (idx (ix2 (j 0) (0 : Fin 1))).toInt = ((i 0).val : Int) := by
  have hst : ∀ a, (rowScatter N E wf).start j idx a + ((rowScatter N E wf).window j a : Int)
      = (idx (ix2 (j 0) (0 : Fin 1))).toInt := by
    intro a
    obtain rfl : a = 0 := Subsingleton.elim _ _
    have hw : (rowScatter N E wf).window j 0 = 0 := by
      unfold ScatterDims.window
      rw [dif_neg (by simp [ScatterDims.sKept, Shape.kept])]
    have hs : (rowScatter N E wf).start j idx 0 = (idx (ix2 (j 0) (0 : Fin 1))).toInt := by
      unfold ScatterDims.start
      rw [dif_pos (show (0 : Fin 1) ∈ (rowScatter N E wf).scatterDimsToOperandDims from List.mem_singleton.mpr rfl)]
      have hsi : (rowScatter N E wf).siIdx j ⟨List.idxOf (0 : Fin 1) (rowScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  unfold ScatterDims.resultIdx?
  by_cases h : ∀ a, 0 ≤ (rowScatter N E wf).start j idx a + ((rowScatter N E wf).window j a : Int) ∧
      (rowScatter N E wf).start j idx a + ((rowScatter N E wf).window j a : Int) < ((⟨1, ![N]⟩ : Shape).size a : Int)
  · rw [dif_pos h]
    constructor
    · intro e
      have e0 : ((rowScatter N E wf).start j idx 0 + ((rowScatter N E wf).window j 0 : Int)).toNat = (i 0).val :=
        congrArg (fun f : (⟨1, ![N]⟩ : Shape).Idx => (f 0).val) (Option.some.inj e)
      have h0 := (h 0).1
      rw [hst 0] at e0 h0
      omega
    · intro e
      refine congrArg some ?_
      funext a
      obtain rfl : a = 0 := Subsingleton.elim _ _
      refine Fin.ext ?_
      show ((rowScatter N E wf).start j idx 0 + ((rowScatter N E wf).window j 0 : Int)).toNat = (i 0).val
      rw [hst 0, e]; simp
  · rw [dif_neg h]
    constructor
    · intro e; cases e
    · intro e
      exfalso; apply h
      intro a
      rw [hst a, e]
      obtain rfl : a = 0 := Subsingleton.elim _ _
      exact ⟨by positivity, by exact_mod_cast (i 0).isLt⟩

/-- At the exact instance element `i` of the scatter is the old element plus the sum of the updates whose index word
    is `i`. -/
theorem scatterAdd_row_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (i : (⟨1, ![N]⟩ : Shape).Idx) :
    Host.scatterAdd (F := Ideal) (rowScatter N E wf) x idx upd i
      = x i + ∑ e : Fin E, if (idx (ix2 e (0 : Fin 1))).toInt = ((i 0).val : Int) then upd (ix1 e) else 0 := by
  show x i + ∑ j ∈ Finset.univ.filter (fun j => (rowScatter N E wf).resultIdx? j idx = some i), upd j = _
  refine congrArg (x i + ·) ?_
  rw [Finset.sum_filter, sum_idx1]
  refine Finset.sum_congr rfl fun e _ => ?_
  exact if_congr (resultIdx_row_iff wf (ix1 e) idx i) rfl rfl

/-- The dimension numbers of `segment_sum` into a column `x : [N, 1]` at `idx : [E, 1]` with updates `[E, 1]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when its index word, read signed, is `i`. -/
theorem resultIdx_col_iff {N E w : Nat} (wf : ScatterDims.WF ⟨2, ![N, 1]⟩ ⟨2, ![E, 1]⟩ ⟨2, ![E, 1]⟩ [1] [0] [0] 1)
    (j : (⟨2, ![E, 1]⟩ : Shape).Idx) (idx : IVec ⟨2, ![E, 1]⟩ w) (i : (⟨2, ![N, 1]⟩ : Shape).Idx) :
    (colScatter N E wf).resultIdx? j idx = some i ↔ (idx (ix2 (j 0) (0 : Fin 1))).toInt = ((i 0).val : Int) := by
  have hst0 : (colScatter N E wf).start j idx 0 + ((colScatter N E wf).window j 0 : Int)
      = (idx (ix2 (j 0) (0 : Fin 1))).toInt := by
    have hw : (colScatter N E wf).window j 0 = 0 := by
      unfold ScatterDims.window
      rw [dif_neg (by simp [ScatterDims.sKept, Shape.kept])]
    have hs : (colScatter N E wf).start j idx 0 = (idx (ix2 (j 0) (0 : Fin 1))).toInt := by
      unfold ScatterDims.start
      rw [dif_pos (show (0 : Fin 2) ∈ (colScatter N E wf).scatterDimsToOperandDims from List.mem_singleton.mpr rfl)]
      have hsi : (colScatter N E wf).siIdx j ⟨List.idxOf (0 : Fin 2) (colScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  have hst1 : (colScatter N E wf).start j idx 1 + ((colScatter N E wf).window j 1 : Int) = 0 := by
    have hw : (colScatter N E wf).window j 1 = 0 := by
      unfold ScatterDims.window
      rw [dif_pos (by simp [ScatterDims.sKept, Shape.kept])]
      have := (j 1).isLt
      show (j 1).val = 0
      have h1 : (j 1).val < 1 := this
      omega
    have hs : (colScatter N E wf).start j idx 1 = 0 := by
      unfold ScatterDims.start
      rw [dif_neg (fun h => absurd (congrArg Fin.val (List.mem_singleton.mp h)) (by simp))]
    rw [hw, hs]; simp
  have hi1 : (i 1).val = 0 := by
    have h1 : (i 1).val < 1 := (i 1).isLt
    omega
  unfold ScatterDims.resultIdx?
  by_cases h : ∀ a, 0 ≤ (colScatter N E wf).start j idx a + ((colScatter N E wf).window j a : Int) ∧
      (colScatter N E wf).start j idx a + ((colScatter N E wf).window j a : Int) < ((⟨2, ![N, 1]⟩ : Shape).size a : Int)
  · rw [dif_pos h]
    constructor
    · intro e
      have e0 : ((colScatter N E wf).start j idx 0 + ((colScatter N E wf).window j 0 : Int)).toNat = (i 0).val :=
        congrArg (fun f : (⟨2, ![N, 1]⟩ : Shape).Idx => (f 0).val) (Option.some.inj e)
      have h0 := (h 0).1
      rw [hst0] at e0 h0
      omega
    · intro e
      refine congrArg some ?_
      funext a
      refine Fin.ext ?_
      match a with
      | ⟨0, _⟩ =>
        show ((colScatter N E wf).start j idx 0 + ((colScatter N E wf).window j 0 : Int)).toNat = (i 0).val
        rw [hst0, e]; simp
      | ⟨1, _⟩ =>
        show ((colScatter N E wf).start j idx 1 + ((colScatter N E wf).window j 1 : Int)).toNat = (i 1).val
        rw [hst1, hi1]; rfl
  · rw [dif_neg h]
    constructor
    · intro e; cases e
    · intro e
      exfalso; apply h
      intro a
      match a with
      | ⟨0, _⟩ =>
        show 0 ≤ (colScatter N E wf).start j idx 0 + ((colScatter N E wf).window j 0 : Int) ∧
          (colScatter N E wf).start j idx 0 + ((colScatter N E wf).window j 0 : Int) < ((⟨2, ![N, 1]⟩ : Shape).size 0 : Int)
        rw [hst0, e]
        exact ⟨by positivity, by exact_mod_cast (i 0).isLt⟩
      | ⟨1, _⟩ =>
        show 0 ≤ (colScatter N E wf).start j idx 1 + ((colScatter N E wf).window j 1 : Int) ∧
          (colScatter N E wf).start j idx 1 + ((colScatter N E wf).window j 1 : Int) < ((⟨2, ![N, 1]⟩ : Shape).size 1 : Int)
        rw [hst1]
        exact ⟨le_refl _, Int.natCast_pos.mpr Nat.one_pos⟩

/-- At the exact instance row `i` of the scattered column is the old row plus the sum of the update rows whose index
    word is `i`. -/
theorem scatterAdd_col_apply {N E w : Nat} (wf : ScatterDims.WF ⟨2, ![N, 1]⟩ ⟨2, ![E, 1]⟩ ⟨2, ![E, 1]⟩ [1] [0] [0] 1)
    (x : FVec Ideal ⟨2, ![N, 1]⟩ .f32) (idx : IVec ⟨2, ![E, 1]⟩ w) (upd : FVec Ideal ⟨2, ![E, 1]⟩ .f32)
    (i : (⟨2, ![N, 1]⟩ : Shape).Idx) :
    Host.scatterAdd (F := Ideal) (colScatter N E wf) x idx upd i
      = x i + ∑ e : Fin E, if (idx (ix2 e (0 : Fin 1))).toInt = ((i 0).val : Int) then upd (ix2 e (0 : Fin 1)) else 0 := by
  show x i + ∑ j ∈ Finset.univ.filter (fun j => (colScatter N E wf).resultIdx? j idx = some i), upd j = _
  refine congrArg (x i + ·) ?_
  rw [Finset.sum_filter, sum_idxCol]
  refine Finset.sum_congr rfl fun e _ => ?_
  exact if_congr (resultIdx_col_iff wf (ix2 e (0 : Fin 1)) idx i) rfl rfl

end Scatter

end Idealize.ShloMosaic.GatherScatterIdx

end
-- ==== Proof.GcnLaw.lean ====
/-
  The graph-convolution law, over the extended reals, with every irregular access already resolved to a position.

  There are `E` edges and `N` nodes. Edge `e` lands on node `i` when `hit e i`; it reads its source's and its
  destination's values at positions `gs e` and `gd e`. Every node also carries a self-loop.

  * The self-loops written analytically: the degree is the edge count plus one, the output the edges' sum plus the
    diagonal term `d i · d i · h i` (`outLoop`).
  * The self-loops as N extra edges, already collapsed to the one loop that lands on `i`: the degree is
    `0 + (count + one)`, guarded by `degree > 0` before the reciprocal square root, and the diagonal term sits inside
    the edge sum (`outCat`).

  The two agree: the degree is positive (a sum of non-negative terms plus a positive one), so the guard is vacuous, and
  the rest is associativity of addition and multiplication on the extended reals. No finiteness is needed.
-/
import Idealize.ShloMosaic.PureOps.Ideal
import Idealize.ShloMosaic.PureOps.Ideal.Laws

noncomputable section

open scoped BigOperators

namespace Cert.Gcn

open Idealize.ShloMosaic

variable {N E : Nat}

/-- The number of edges landing on `i`, each counted as `one`. -/
def count (one : EReal) (hit : Fin E → Fin N → Prop) [∀ e i, Decidable (hit e i)] (i : Fin N) : EReal :=
  ∑ e : Fin E, if hit e i then one else 0

/-- Analytic self-loops: the normaliser `rs (edge count + one)`. -/
def dLoop (one : EReal) (rs : EReal → EReal) (hit : Fin E → Fin N → Prop) [∀ e i, Decidable (hit e i)] (i : Fin N) : EReal :=
  rs ((0 + count one hit i) + one)

/-- Analytic self-loops: the edges' normalised messages summed at their destination, plus the diagonal term. -/
def outLoop (one : EReal) (rs : EReal → EReal) (hit : Fin E → Fin N → Prop) [∀ e i, Decidable (hit e i)]
    (gs gd : Fin E → Fin N) (h : Fin N → EReal) (i : Fin N) : EReal :=
  (0 + ∑ e : Fin E, if hit e i then dLoop one rs hit (gs e) * dLoop one rs hit (gd e) * h (gs e) else 0)
    + dLoop one rs hit i * dLoop one rs hit i * h i

/-- Self-loops as extra edges: the degree. -/
def degCat (one : EReal) (hit : Fin E → Fin N → Prop) [∀ e i, Decidable (hit e i)] (i : Fin N) : EReal :=
  0 + (count one hit i + one)

/-- Self-loops as extra edges: the guarded normaliser. -/
def dCat (one : EReal) (rs : EReal → EReal) (hit : Fin E → Fin N → Prop) [∀ e i, Decidable (hit e i)] (i : Fin N) : EReal :=
  Scalar.select (Ideal.cmp .ogt (degCat one hit i) 0) (rs (degCat one hit i)) 0

/-- Self-loops as extra edges: one sum over edges and loops, the loops collapsed to the one landing on `i`. -/
def outCat (one : EReal) (rs : EReal → EReal) (hit : Fin E → Fin N → Prop) [∀ e i, Decidable (hit e i)]
    (gs gd : Fin E → Fin N) (h : Fin N → EReal) (i : Fin N) : EReal :=
  0 + ((∑ e : Fin E, if hit e i then (dCat one rs hit (gs e) * dCat one rs hit (gd e)) * h (gs e) else 0)
    + (dCat one rs hit i * dCat one rs hit i) * h i)

/-- The analytic normaliser from the edge count alone. -/
theorem dLoop_of_count (one : EReal) (rs : EReal → EReal) (hit : Fin E → Fin N → Prop) [∀ e i, Decidable (hit e i)]
    (i : Fin N) (C : EReal) (hC : C = count one hit i) : rs (C + one) = dLoop one rs hit i := by
  subst hC
  unfold dLoop
  rw [zero_add]

/-- The analytic output from its two parts: the edges' sum and the diagonal term. -/
theorem outLoop_of_parts (one : EReal) (rs : EReal → EReal) (hit : Fin E → Fin N → Prop) [∀ e i, Decidable (hit e i)]
    (gs gd : Fin E → Fin N) (h : Fin N → EReal) (i : Fin N) (S D : EReal)
    (hS : S = ∑ e : Fin E, if hit e i then dLoop one rs hit (gs e) * dLoop one rs hit (gd e) * h (gs e) else 0)
    (hD : D = dLoop one rs hit i * dLoop one rs hit i * h i) : S + D = outLoop one rs hit gs gd h i := by
  subst hS hD
  unfold outLoop
  rw [zero_add]

theorem count_nonneg (one : EReal) (hone : 0 ≤ one) (hit : Fin E → Fin N → Prop) [∀ e i, Decidable (hit e i)] (i : Fin N) :
    0 ≤ count one hit i := by
  unfold count
  refine Finset.sum_nonneg fun e _ => ?_
  split
  · exact hone
  · exact le_refl _

theorem degCat_pos (one : EReal) (hone : 0 < one) (hit : Fin E → Fin N → Prop) [∀ e i, Decidable (hit e i)] (i : Fin N) :
    0 < degCat one hit i := by
  unfold degCat
  rw [zero_add]
  exact lt_of_lt_of_le hone (le_add_of_nonneg_left (count_nonneg one hone.le hit i))

/-- The guard is vacuous: the two normalisers are one function. -/
theorem dCat_eq (one : EReal) (hone : 0 < one) (rs : EReal → EReal) (hit : Fin E → Fin N → Prop)
    [∀ e i, Decidable (hit e i)] (i : Fin N) : dCat one rs hit i = dLoop one rs hit i := by
  unfold dCat dLoop
  have hpos := degCat_pos one hone hit i
  have hsel : Scalar.select (Ideal.cmp .ogt (degCat one hit i) 0) (rs (degCat one hit i)) 0 = rs (degCat one hit i) := by
    simp [Scalar.select, Ideal.cmp, hpos]
  rw [hsel]
  unfold degCat
  rw [zero_add, zero_add]

/-- THE LAW: self-loops as extra edges and self-loops written analytically give the same output. -/
theorem outCat_eq (one : EReal) (hone : 0 < one) (rs : EReal → EReal) (hit : Fin E → Fin N → Prop)
    [∀ e i, Decidable (hit e i)] (gs gd : Fin E → Fin N) (h : Fin N → EReal) (i : Fin N) :
    outCat one rs hit gs gd h i = outLoop one rs hit gs gd h i := by
  unfold outCat outLoop
  simp only [dCat_eq one hone rs hit]
  rw [zero_add, zero_add]

end Cert.Gcn

end
-- ==== Proof.GcnWords.lean ====
/-
  The words and positions both programs share, and the specification.

  A node index arrives as a 32-bit word. A GATHER wraps a negative word once (`w + 100000`) and then clamps it into
  [0, 99999]: `pos w`. A SCATTER takes the word as a signed integer as it is, and the update lands on node `i` only when
  that integer is exactly `i`: `hitW w i`. For the word of a node's own number `k < 100000` (a self-loop's source and
  destination) both readings give `k`.

  The specification `gcnOut` is the graph convolution with the self-loops written analytically: with
  `d i = rsqrt (number of edges landing on i, plus one)` and `h = x · W`,
  `out i = (sum over edges e landing on i of d (src e) · d (dst e) · h (src e)) + d i · d i · h i`.
-/
import proofs.«147441_j77756087927188_2_alg».proof.Proof.GcnLaw
import Idealize.ShloMosaic.Lib.ValueIdx

noncomputable section

open scoped BigOperators

namespace Cert.Gcn

open Idealize.ShloMosaic Idealize.ShloMosaic.ValueIdx

/-- A gather's index word after the wrap of negatives: `w + 100000` when `w < 0` as a signed integer, else `w`. -/
def wrap (v : BitVec 32) : BitVec 32 := Scalar.select (IntOp.cmpi .slt v 0#32) (IntOp.addi v 100000#32) v

/-- A word read as a signed integer and clamped into [0, 99999]. -/
def clamp (w : BitVec 32) : Fin 100000 := ⟨min w.toInt.toNat (100000 - 1), by omega⟩

/-- The node a gather reads for the index word `v`: wrapped, then clamped into [0, 99999]. -/
def pos (v : BitVec 32) : Fin 100000 := clamp (wrap v)

/-- The index word `v`, read as a signed integer and not clamped, is the node `i`. -/
def hitW (v : BitVec 32) (i : Fin 100000) : Prop := v.toInt = (i.val : Int)

instance (v : BitVec 32) (i : Fin 100000) : Decidable (hitW v i) := by unfold hitW; infer_instance

/-- The word of a small number reads back as that number. -/
theorem toInt_ofNat_small (k : Nat) (hk : k < 100000) : (BitVec.ofNat 32 k).toInt = (k : Int) := by
  rw [BitVec.toInt_eq_toNat_cond, BitVec.toNat_ofNat]
  have hm : k % 2 ^ 32 = k := Nat.mod_eq_of_lt (by omega)
  rw [hm]
  split <;> omega

/-- A node's own number is not wrapped … -/
theorem wrap_ofNat_small (k : Nat) (hk : k < 100000) : wrap (BitVec.ofNat 32 k) = BitVec.ofNat 32 k := by
  unfold wrap
  have h0 : IntOp.cmpi .slt (BitVec.ofNat 32 k) 0#32 = 0#1 := by
    have hlt : (BitVec.ofNat 32 k).slt 0#32 = false := by
      rw [BitVec.slt, toInt_ofNat_small k hk]
      simp
    show BitVec.ofBool ((BitVec.ofNat 32 k).slt 0#32) = 0#1
    rw [hlt]; rfl
  rw [h0]
  exact select_zero _ _

/-- … and a gather reads it at itself … -/
theorem pos_ofNat (k : Fin 100000) : pos (BitVec.ofNat 32 k.val) = k := by
  unfold pos clamp
  refine Fin.ext ?_
  show min (wrap (BitVec.ofNat 32 k.val)).toInt.toNat (100000 - 1) = k.val
  rw [wrap_ofNat_small k.val k.isLt, toInt_ofNat_small k.val k.isLt]
  have := k.isLt
  simp only [Int.toNat_natCast]
  omega

/-- … and a scatter lands it on itself only. -/
theorem hitW_ofNat (k i : Fin 100000) : hitW (BitVec.ofNat 32 k.val) i ↔ k = i := by
  unfold hitW
  rw [toInt_ofNat_small k.val k.isLt]
  constructor
  · intro h; exact Fin.ext (by exact_mod_cast h)
  · intro h; rw [h]

/-- The value 1.0 of both programs' constant. -/
def one : EReal := Ideal.ofBits .f32 0x3F800000#32

theorem one_eq : one = 1 := by
  unfold one
  simp [Ideal.ofBits, Ideal.ieee, -EReal.coe_mul]; norm_num

theorem one_pos : 0 < one := by rw [one_eq]; exact zero_lt_one

/-- The linear transform `h = x · W` at node `n` (W has one column). -/
def feat (x : (⟨2, ![100000, 512]⟩ : Shape).Idx → EReal) (W : (⟨2, ![512, 1]⟩ : Shape).Idx → EReal) (n : Fin 100000) : EReal :=
  ∑ k : Fin 512, x (ix2 n k) * W (ix2 k (0 : Fin 1))

/-- Which edges land on which node: edge `e`'s destination word is row 1 of the edge array. -/
abbrev lands (ei : (⟨2, ![2, 3200000]⟩ : Shape).Idx → BitVec 32) (e : Fin 3200000) (i : Fin 100000) : Prop :=
  hitW (ei (ix2 (1 : Fin 2) e)) i

/-- THE SPECIFICATION: the convolution's output at node `i`, self-loops written analytically. -/
def gcnOut (x : (⟨2, ![100000, 512]⟩ : Shape).Idx → EReal) (ei : (⟨2, ![2, 3200000]⟩ : Shape).Idx → BitVec 32)
    (W : (⟨2, ![512, 1]⟩ : Shape).Idx → EReal) (i : Fin 100000) : EReal :=
  outLoop one Ideal.rsqrt (lands ei) (fun e => pos (ei (ix2 (0 : Fin 2) e))) (fun e => pos (ei (ix2 (1 : Fin 2) e)))
    (feat x W) i

/-- The specification as an array over the node index set. -/
def gcnArr (x : (⟨2, ![100000, 512]⟩ : Shape).Idx → EReal) (ei : (⟨2, ![2, 3200000]⟩ : Shape).Idx → BitVec 32)
    (W : (⟨2, ![512, 1]⟩ : Shape).Idx → EReal) : (⟨1, ![100000]⟩ : Shape).Idx → EReal :=
  fun j => gcnOut x ei W ⟨(j 0).val, (j 0).isLt⟩

theorem gcnArr_apply (x : (⟨2, ![100000, 512]⟩ : Shape).Idx → EReal) (ei : (⟨2, ![2, 3200000]⟩ : Shape).Idx → BitVec 32)
    (W : (⟨2, ![512, 1]⟩ : Shape).Idx → EReal) (i : Fin 100000) : gcnArr x ei W (ix1 i) = gcnOut x ei W i := rfl

/-! ## Elementwise host operations at an index, at the exact instance (definitional) -/

theorem hostRsqrt_apply {s : Shape} (X : FVec Ideal s .f32) (i : s.Idx) : Host.rsqrt X i = Ideal.rsqrt (X i) := rfl
theorem addf_at {s : Shape} (a b : FVec Ideal s .f32) (i : s.Idx) : addf a b i = a i + b i := rfl
theorem mulf_at {s : Shape} (a b : FVec Ideal s .f32) (i : s.Idx) : mulf a b i = a i * b i := rfl

end Cert.Gcn

end
-- ==== Proof.RefWords.lean ====
/-
  The reference program's index words and irregular accesses, read at an index.

  The reference appends one self-loop per node to the edge list: N extra source and destination words, the node's own
  number. An entry below E is an edge's word (row 0 or row 1 of the edge array); entry E + k is the word of k. Every
  gather reads at the wrapped word; the gathers and scatters of this program are instances of the flat and the column
  layouts.
-/
import proofs.«147441_j77756087927188_2_alg».proof.Proof.RefRead
import proofs.«147441_j77756087927188_2_alg».proof.Proof.LibGatherScatter
import proofs.«147441_j77756087927188_2_alg».proof.Proof.GcnWords
import Idealize.ShloMosaic.PureOps.Ideal.Laws

noncomputable section

open scoped BigOperators

namespace Cert.ReferenceIdeal.RefValue

open Cert.ReferenceIdeal Cert.ReferenceIdeal.Gen Cert.ReferenceIdeal.ReadP Cert.Gcn
open Idealize.ShloMosaic Idealize.ShloMosaic.ValueIdx Idealize.ShloMosaic.GatherScatterIdx

variable (x0 : (⟨S100000x512, .f32⟩ : BufTy).Contents (Elt Ideal)) (x1 : (⟨S2x3200000, .i32⟩ : BufTy).Contents (Elt Ideal))
  (x2 : (⟨S512x1, .f32⟩ : BufTy).Contents (Elt Ideal))

/-! ## The concatenated index words: an edge's word, then a node's own number -/

theorem edge_row (r : Fin 2) (e : Fin 3200000) :
    (fun a => match a with
      | ⟨0, _⟩ => (⟨r.val, r.isLt⟩ : Fin 2)
      | ⟨1, _⟩ => (⟨e.val % 3200000, Nat.mod_lt _ (by decide)⟩ : Fin 3200000) : S2x3200000.Idx) = ix2 r e := by
  funext a
  match a with
  | ⟨0, _⟩ => rfl
  | ⟨1, _⟩ => exact Fin.ext (Nat.mod_eq_of_lt e.isLt)

theorem src_edge (e : Fin 3200000) (h : e.val < 3300000) :
    val_main_v5 (F := Ideal) x1 (ix1 (⟨e.val, h⟩ : Fin 3300000)) = x1 (ix2 (0 : Fin 2) e) := by
  unfold val_main_v5
  rw [concatenate_pair_apply_left (0 : Fin S3300000.rank) _ _ concatenates_S3200000_S100000_S3300000_d0
    (ix1 (⟨e.val, h⟩ : Fin 3300000)) rfl (ix1 e) (fun b => by obtain rfl : b = 0 := Subsingleton.elim _ _; rfl)]
  rw [val_main_v1_apply, val_main_v0_apply]
  refine congrArg x1 ?_
  funext a
  match a with
  | ⟨0, _⟩ => rfl
  | ⟨1, _⟩ => exact Fin.ext (Nat.mod_eq_of_lt e.isLt)

theorem dst_edge (e : Fin 3200000) (h : e.val < 3300000) :
    val_main_v6 (F := Ideal) x1 (ix1 (⟨e.val, h⟩ : Fin 3300000)) = x1 (ix2 (1 : Fin 2) e) := by
  unfold val_main_v6
  rw [concatenate_pair_apply_left (0 : Fin S3300000.rank) _ _ concatenates_S3200000_S100000_S3300000_d0
    (ix1 (⟨e.val, h⟩ : Fin 3300000)) rfl (ix1 e) (fun b => by obtain rfl : b = 0 := Subsingleton.elim _ _; rfl)]
  rw [val_main_v3_apply, val_main_v2_apply]
  refine congrArg x1 ?_
  funext a
  match a with
  | ⟨0, _⟩ => rfl
  | ⟨1, _⟩ => exact Fin.ext (Nat.mod_eq_of_lt e.isLt)

theorem src_loop (k : Fin 100000) (h : 3200000 + k.val < 3300000) :
    val_main_v5 (F := Ideal) x1 (ix1 (⟨3200000 + k.val, h⟩ : Fin 3300000)) = BitVec.ofNat 32 k.val := by
  unfold val_main_v5
  rw [concatenate_pair_apply_right (0 : Fin S3300000.rank) _ _ concatenates_S3200000_S100000_S3300000_d0
    (ix1 (⟨3200000 + k.val, h⟩ : Fin 3300000)) rfl rfl (ix1 k)
    (fun b hb => absurd (Subsingleton.elim _ _) hb)
    (by show k.val + 3200000 = 3200000 + k.val; omega)]
  rfl

theorem dst_loop (k : Fin 100000) (h : 3200000 + k.val < 3300000) :
    val_main_v6 (F := Ideal) x1 (ix1 (⟨3200000 + k.val, h⟩ : Fin 3300000)) = BitVec.ofNat 32 k.val := by
  unfold val_main_v6
  rw [concatenate_pair_apply_right (0 : Fin S3300000.rank) _ _ concatenates_S3200000_S100000_S3300000_d0
    (ix1 (⟨3200000 + k.val, h⟩ : Fin 3300000)) rfl rfl (ix1 k)
    (fun b hb => absurd (Subsingleton.elim _ _) hb)
    (by show k.val + 3200000 = 3200000 + k.val; omega)]
  rfl

/-! ## The broadcasts to a column read the row -/

theorem colIdx_eq (e : Fin 3300000) (f : S3300000x1.Idx → S3300000.Idx) (hf : ∀ i, (f i 0).val = (i 0).val) :
    f (ix2 e (0 : Fin 1)) = ix1 e := by
  funext a
  obtain rfl : a = 0 := Subsingleton.elim _ _
  exact Fin.ext (hf _)

/-! ## The wrapped index words the three gathers read -/

theorem gidx_src (e : Fin 3300000) :
    val_main_v21 (F := Ideal) x1 (ix2 e (0 : Fin 1)) = wrap (val_main_v5 (F := Ideal) x1 (ix1 e)) := by
  rw [val_main_v21_apply, colIdx_eq e idx_main_v21 (fun _ => rfl), val_main_v20_apply, val_main_v17_apply,
    val_main_v19_apply, val_main_v16_apply, val_main_c_apply, val_main_v18_apply, val_main_c_3_apply]
  rfl

theorem gidx_dst (e : Fin 3300000) :
    val_main_v28 (F := Ideal) x1 (ix2 e (0 : Fin 1)) = wrap (val_main_v6 (F := Ideal) x1 (ix1 e)) := by
  rw [val_main_v28_apply, colIdx_eq e idx_main_v28 (fun _ => rfl), val_main_v27_apply, val_main_v24_apply,
    val_main_v26_apply, val_main_v23_apply, val_main_c_4_apply, val_main_v25_apply, val_main_c_5_apply]
  rfl

theorem gidx_feat (e : Fin 3300000) :
    val_main_v38 (F := Ideal) x1 (ix2 e (0 : Fin 1)) = wrap (val_main_v5 (F := Ideal) x1 (ix1 e)) := by
  rw [val_main_v38_apply, colIdx_eq e idx_main_v38 (fun _ => rfl), val_main_v37_apply, val_main_v34_apply,
    val_main_v36_apply, val_main_v33_apply, val_main_c_6_apply, val_main_v35_apply, val_main_c_7_apply]
  rfl

/-! ## The gathers and scatters of this program, read at an index -/

theorem gather_flat (X : S100000.Idx → EReal) (I : IVec S3300000x1 32) (e : Fin 3300000) :
    Host.gather gather_S100000_S3300000x1_S3300000_n_0_n_n_0_1_1 X I (ix1 e)
      = X (ix1 (clamp (I (ix2 e (0 : Fin 1))))) :=
  gather_row_apply (N := 100000) (E := 3300000) (by decide) gather_S100000_S3300000x1_S3300000_n_0_n_n_0_1_1_wf X I (ix1 e)

theorem gather_column (X : S100000x1.Idx → EReal) (I : IVec S3300000x1 32) (e : Fin 3300000) :
    Host.gather gather_S100000x1_S3300000x1_S3300000x1_1_0_n_n_0_1_11 X I (ix2 e (0 : Fin 1))
      = X (ix2 (clamp (I (ix2 e (0 : Fin 1)))) (0 : Fin 1)) :=
  gather_col_apply (N := 100000) (E := 3300000) (by decide) gather_S100000x1_S3300000x1_S3300000x1_1_0_n_n_0_1_11_wf X I
    (ix2 e (0 : Fin 1))

theorem scatter_flat (X : FVec Ideal S100000 .f32) (I : IVec S3300000x1 32) (U : FVec Ideal S3300000 .f32) (p : Fin 100000) :
    Host.scatterAdd (F := Ideal) scatter_S100000_S3300000x1_S3300000_n_0_0_1 X I U (ix1 p)
      = X (ix1 p) + ∑ e : Fin 3300000, if (I (ix2 e (0 : Fin 1))).toInt = (p.val : Int) then U (ix1 e) else 0 :=
  scatterAdd_row_apply (N := 100000) (E := 3300000) scatter_S100000_S3300000x1_S3300000_n_0_0_1_wf X I U (ix1 p)

theorem scatter_column (X : FVec Ideal S100000x1 .f32) (I : IVec S3300000x1 32) (U : FVec Ideal S3300000x1 .f32)
    (p : Fin 100000) :
    Host.scatterAdd (F := Ideal) scatter_S100000x1_S3300000x1_S3300000x1_1_0_0_1 X I U (ix2 p (0 : Fin 1))
      = X (ix2 p (0 : Fin 1))
        + ∑ e : Fin 3300000, if (I (ix2 e (0 : Fin 1))).toInt = (p.val : Int) then U (ix2 e (0 : Fin 1)) else 0 :=
  scatterAdd_col_apply (N := 100000) (E := 3300000) scatter_S100000x1_S3300000x1_S3300000x1_1_0_0_1_wf X I U
    (ix2 p (0 : Fin 1))

end Cert.ReferenceIdeal.RefValue

end
-- ==== Proof.RefValue.lean ====
/-
  The reference program's result, index by index, is the specification.

  Read at node `i`: every scatter is the sum over the E + N entries whose destination word is `i`, every gather reads
  at the wrapped and clamped word. Each such sum splits into the sum over the edges plus the sum over the loops, and of
  the loops exactly the one of node `i` lands on `i`, reading its values at `i`. What is left is the law `outCat_eq`:
  the degree is positive, so the guard before the reciprocal square root is vacuous.
-/
import proofs.«147441_j77756087927188_2_alg».proof.Proof.RefWords

noncomputable section

open scoped BigOperators

namespace Cert.ReferenceIdeal.RefValue

open Cert.ReferenceIdeal Cert.ReferenceIdeal.Gen Cert.ReferenceIdeal.ReadP Cert.Gcn
open Idealize.ShloMosaic Idealize.ShloMosaic.ValueIdx Idealize.ShloMosaic.GatherScatterIdx

variable (x0 : (⟨S100000x512, .f32⟩ : BufTy).Contents (Elt Ideal)) (x1 : (⟨S2x3200000, .i32⟩ : BufTy).Contents (Elt Ideal))
  (x2 : (⟨S512x1, .f32⟩ : BufTy).Contents (Elt Ideal))

/-! ## A sum over the E + N entries: the edges, then the one loop that lands on the node -/

/-- Of a sum over edges-then-loops guarded by "the destination word is `p`", the loops leave the term of loop `p`. -/
theorem sum_entries (p : Fin 100000) (f : Fin 3300000 → EReal) :
    (∑ e : Fin 3300000, if (val_main_v6 (F := Ideal) x1 (ix1 e)).toInt = (p.val : Int) then f e else 0)
      = (∑ e : Fin 3200000, if lands x1 e p then f ⟨e.val, by omega⟩ else 0) + f ⟨3200000 + p.val, by omega⟩ := by
  rewrite [sum_fin_split (E := 3200000) (N := 100000) (T := 3300000) (by norm_num)]
  refine congrArg₂ (· + ·) ?_ ?_
  · refine Finset.sum_congr rfl fun e _ => ?_
    rewrite [dst_edge x1 e]
    rfl
  · have hk : ∀ k : Fin 100000,
        (if (val_main_v6 (F := Ideal) x1 (ix1 (⟨3200000 + k.val, by omega⟩ : Fin 3300000))).toInt = (p.val : Int)
          then f ⟨3200000 + k.val, by omega⟩ else 0)
        = if k = p then f ⟨3200000 + k.val, by omega⟩ else 0 := by
      intro k
      rw [dst_loop x1 k]
      exact if_congr (hitW_ofNat k p) rfl rfl
    rw [Finset.sum_congr rfl fun k _ => hk k, Finset.sum_ite_eq' Finset.univ p, if_pos (Finset.mem_univ _)]

/-! ## The stages -/

/-- The degree. -/
theorem degree_apply (p : Fin 100000) : val_main_v10 (F := Ideal) x1 (ix1 p) = degCat one (lands x1) p := by
  unfold val_main_v10
  rw [scatter_flat, val_main_v8_apply, val_main_cst_0_apply]
  have hu : ∀ e : Fin 3300000, val_main_v7 (F := Ideal) (ix1 e) = one := fun e => by
    rw [val_main_v7_apply, val_main_cst_apply]; rfl
  have hi : ∀ e : Fin 3300000, val_main_v9 (F := Ideal) x1 (ix2 e (0 : Fin 1)) = val_main_v6 (F := Ideal) x1 (ix1 e) :=
    fun e => by rw [val_main_v9_apply, colIdx_eq e idx_main_v9 (fun _ => rfl)]
  simp only [hu, hi]
  rw [sum_entries x1 p (fun _ => one)]
  show Ideal.ofBits .f32 0x00000000#32 + _ = _
  rw [Ideal.ofBits_zero_f32]
  rfl

/-- The guarded normaliser. -/
theorem norm_apply (p : Fin 100000) : val_main_v15 (F := Ideal) x1 (ix1 p) = dCat one Ideal.rsqrt (lands x1) p := by
  have h14 : val_main_v14 (F := Ideal) (ix1 p) = (0 : EReal) := by
    rewrite [val_main_v14_apply, val_main_cst_2_apply]; exact Ideal.ofBits_zero_f32
  have h11 : val_main_v11 (F := Ideal) (ix1 p) = (0 : EReal) := by
    rewrite [val_main_v11_apply, val_main_cst_1_apply]; exact Ideal.ofBits_zero_f32
  rewrite [val_main_v15_apply, val_main_v12_apply, val_main_v13_apply, degree_apply x1 p, h14, h11]
  simp only [Ideal.cmpf_def, Ideal.hostUnary_rsqrt_def]
  rfl

/-- The linear transform. -/
theorem feat_apply (p : Fin 100000) : val_main_v31 (F := Ideal) x0 x2 (ix2 p (0 : Fin 1)) = feat x0 x2 p := by
  rw [val_main_v31_apply]
  unfold feat
  refine Finset.sum_congr rfl fun k _ => ?_
  have hl : lidx_main_v31 (ix2 p (0 : Fin 1)) k = ix2 p k := by
    funext a; match a with | ⟨0, _⟩ => rfl | ⟨1, _⟩ => rfl
  have hr : ridx_main_v31 (ix2 p (0 : Fin 1)) k = ix2 k (0 : Fin 1) := by
    funext a; match a with | ⟨0, _⟩ => rfl | ⟨1, _⟩ => rfl
  rw [hl, hr]

/-- One entry's message: the two normalisers at the wrapped and clamped words, times the source's transform. -/
theorem message_apply (e : Fin 3300000) :
    val_main_v40 (F := Ideal) x0 x1 x2 (ix2 e (0 : Fin 1))
      = (dCat one Ideal.rsqrt (lands x1) (pos (val_main_v5 (F := Ideal) x1 (ix1 e)))
          * dCat one Ideal.rsqrt (lands x1) (pos (val_main_v6 (F := Ideal) x1 (ix1 e))))
        * feat x0 x2 (pos (val_main_v5 (F := Ideal) x1 (ix1 e))) := by
  have h32 : val_main_v32 (F := Ideal) x1 (ix2 e (0 : Fin 1)) = val_main_v30 (F := Ideal) x1 (ix1 e) := by
    rewrite [val_main_v32_apply, colIdx_eq e idx_main_v32 (fun _ => rfl)]; rfl
  have h22 : val_main_v22 (F := Ideal) x1 (ix1 e)
      = dCat one Ideal.rsqrt (lands x1) (pos (val_main_v5 (F := Ideal) x1 (ix1 e))) := by
    unfold val_main_v22
    refine (gather_flat _ _ e).trans ?_
    rewrite [gidx_src]
    exact norm_apply x1 _
  have h29 : val_main_v29 (F := Ideal) x1 (ix1 e)
      = dCat one Ideal.rsqrt (lands x1) (pos (val_main_v6 (F := Ideal) x1 (ix1 e))) := by
    unfold val_main_v29
    refine (gather_flat _ _ e).trans ?_
    rewrite [gidx_dst]
    exact norm_apply x1 _
  have h39 : val_main_v39 (F := Ideal) x0 x1 x2 (ix2 e (0 : Fin 1))
      = feat x0 x2 (pos (val_main_v5 (F := Ideal) x1 (ix1 e))) := by
    unfold val_main_v39
    refine (gather_column _ _ e).trans ?_
    rewrite [gidx_feat]
    exact feat_apply x0 x2 _
  rewrite [val_main_v40_apply, h32, h39, val_main_v30_apply, h22, h29]
  simp only [Ideal.mulf_def]

/-- THE REFERENCE IS THE SPECIFICATION, index by index. -/
theorem result_apply (i : Fin 100000) : val_main_v44 (F := Ideal) x0 x1 x2 (ix1 i) = gcnOut x0 x1 x2 i := by
  rw [val_main_v44_apply]
  have hidx : idx_main_v44 (ix1 i) = ix2 i (0 : Fin 1) := by
    funext a
    match a with
    | ⟨0, _⟩ => exact Fin.ext (Nat.div_one _)
    | ⟨1, _⟩ => rfl
  rw [hidx]
  unfold val_main_v43
  rw [scatter_column, val_main_v41_apply, val_main_cst_8_apply]
  have hi : ∀ e : Fin 3300000, val_main_v42 (F := Ideal) x1 (ix2 e (0 : Fin 1)) = val_main_v6 (F := Ideal) x1 (ix1 e) :=
    fun e => by rw [val_main_v42_apply, colIdx_eq e idx_main_v42 (fun _ => rfl)]
  simp only [hi, message_apply]
  rw [sum_entries x1 i]
  simp only [src_edge, dst_edge, src_loop, dst_loop, pos_ofNat]
  show Ideal.ofBits .f32 0x00000000#32 + _ = _
  rw [Ideal.ofBits_zero_f32]
  unfold gcnOut
  rewrite [← outCat_eq one one_pos]
  unfold outCat
  rfl

/-- The reference's result array is the specification of its arguments. -/
theorem result_eq : val_main_v44 (F := Ideal) x0 x1 x2 = gcnArr x0 x1 x2 := by
  funext j
  obtain ⟨i, rfl⟩ : ∃ i : Fin 100000, j = ix1 i := ⟨j 0, eq_ix1 j⟩
  exact (result_apply x0 x1 x2 i).trans (gcnArr_apply x0 x1 x2 i).symm

end Cert.ReferenceIdeal.RefValue

end
-- ==== Proof.KernelTransform.lean ====
/-
  The first pipelined region, the linear transform: whatever the feature array `x : [100000, 512]` and the weight
  column `W : [512, 1]` hold when the region is entered, the result column ends holding `x · W`, row by row.

  Grid point `t` (of 20) handles rows 5000 t … 5000 t + 4999: the feature window's and the result window's block index
  is `(t, 0)`, the weight window's is `(0, 0)` at every point. The body is one matrix product into a zero accumulator,
  which at the exact instance is the plain sum over the 512 contracted positions. The point writing row `r` is
  `r / 5000`, so the written blocks cover the column.
-/
import proofs.«147441_j77756087927188_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Transform

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of two extended reals (a name, so that both factors are read as extended reals). -/
def mul2 (a b : EReal) : EReal := a * b

/-- `x · W` as a column: row `r` is the sum over the 512 features of `x[r, k] · W[k, 0]`. -/
def linArr (X : S100000x512.Idx → EReal) (W : S512x1.Idx → EReal) : S100000x1.Idx → EReal :=
  fun i => ∑ k : Fin 512, mul2 (X (ix2 (⟨(i 0).val, idx2_lt0 i⟩ : Fin 100000) k)) (W (ix2 k (0 : Fin 1)))

/-- The transform of the two operand arrays as the region finds them. -/
abbrev lin (c : Dev nD) : S100000x1.Idx → EReal := linArr (V c main_arg0) (V c main_arg2)

/-! ## The body's matrix product at an index -/

local notation "dotK" => dot_S5000x512_S512x1_S5000x1_1_0_0_1_n_n

theorem lhs_0 (i : S5000x1.Idx) (q : (dotK).contr.Idx) : ((dotK).lhsIdx i q 0).val = (i 0).val := by
  unfold DotDims.lhsIdx
  rw [dif_neg (show ¬(0 : Fin S5000x512.rank) ∈ (dotK).lhsBatch by decide),
    dif_pos (show (0 : Fin S5000x512.rank) ∈ (dotK).lhsNonContracting by decide)]
  rfl
theorem lhs_1 (i : S5000x1.Idx) (q : (dotK).contr.Idx) : ((dotK).lhsIdx i q 1).val = (q ⟨0, by decide⟩).val :=
  (dotK).lhsIdx_val_of_single rfl i q
theorem rhs_0 (i : S5000x1.Idx) (q : (dotK).contr.Idx) : ((dotK).rhsIdx i q 0).val = (q ⟨0, by decide⟩).val :=
  (dotK).rhsIdx_val_of_single rfl i q
theorem rhs_1 (i : S5000x1.Idx) (q : (dotK).contr.Idx) : ((dotK).rhsIdx i q 1).val = (i 1).val := by
  unfold DotDims.rhsIdx
  rw [dif_neg (show ¬(1 : Fin S512x1.rank) ∈ (dotK).rhsBatch by decide),
    dif_pos (show (1 : Fin S512x1.rank) ∈ (dotK).rhsNonContracting by decide)]
  rfl

/-- Row `r` of the body's result: the sum over the contracted position of the feature block's row times the weight. -/
theorem pay_apply (x0 : Vec Ideal S5000x512 .f32) (x1 : Vec Ideal S512x1 .f32) (r : Fin 5000) (z : Fin 1) :
    k0_pay1 (F := Ideal) x0 x1 (ix2 r z) = ∑ k : Fin 512, mul2 (x0 (ix2 r k)) (x1 (ix2 k z)) := by
  unfold k0_pay1
  show FloatOps.matmul (F := Ideal) (φ₁ := .f32) (φ₂ := .f32) (dotK) none x0 x1 (constant S5000x1 .f32 0x00000000#32) (ix2 r z) = _
  rw [Ideal.matmul_constant_zero_apply, ← Equiv.sum_comp (ValueIdx.contrEquiv1 (dotK) 512 rfl rfl).symm]
  refine Finset.sum_congr rfl fun k _ => ?_
  have hk := ValueIdx.contrEquiv1_symm_val (dotK) 512 rfl rfl k
  have el : (dotK).lhsIdx (ix2 r z) ((ValueIdx.contrEquiv1 (dotK) 512 rfl rfl).symm k) = ix2 r k :=
    funext fun a => Fin.ext (by
      match a with
      | ⟨0, _⟩ => exact lhs_0 _ _
      | ⟨1, _⟩ => exact (lhs_1 _ _).trans hk)
  have er : (dotK).rhsIdx (ix2 r z) ((ValueIdx.contrEquiv1 (dotK) 512 rfl rfl).symm k) = ix2 k z :=
    funext fun a => Fin.ext (by
      match a with
      | ⟨0, _⟩ => exact (rhs_0 _ _).trans hk
      | ⟨1, _⟩ => exact rhs_1 _ _)
  rw [el, er]
  rfl

/-! ## From blocks to the array -/

/-- The feature and result windows' block at point `t` is `(t, 0)`; the weight window's is `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the transform. -/
theorem flushed_eq (c : Dev nD) (t : Fin cfg0.N) :
    (dat0 V c).flushed 2 t = ((cfg0.win 2).blk t).view.read (Elt Ideal) (lin V c) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x1) hz]
  obtain ⟨e0, e1, e2, e3, e4, e5⟩ := idx_facts t
  funext j
  obtain ⟨r, z, rfl⟩ : ∃ (r : Fin 5000) (z : Fin 1), j = ix2 r z := ⟨j 0, j 1, eq_ix2 j⟩
  have hzv : z.val = 0 := by have := z.isLt; omega
  show k0_pay1 (iblk0 V c 0 t) (iblk0 V c 1 t) (ix2 r z)
    = linArr (V c main_arg0) (V c main_arg2) (((cfg0.win 2).blk t).view.emb (ix2 r z))
  rw [pay_apply]
  unfold linArr
  refine Finset.sum_congr rfl fun k _ => ?_
  show mul2 (V c main_arg0 (((cfg0.win 0).blk t).view.emb (ix2 r k))) (V c main_arg2 (((cfg0.win 1).blk t).view.emb (ix2 k z)))
    = mul2 (V c main_arg0 (ix2 (⟨((((cfg0.win 2).blk t).view.emb (ix2 r z)) 0).val, idx2_lt0 _⟩ : Fin 100000) k))
        (V c main_arg2 (ix2 k (0 : Fin 1)))
  have h0 : ((cfg0.win 0).blk t).view.emb (ix2 r k)
      = ix2 (⟨((((cfg0.win 2).blk t).view.emb (ix2 r z)) 0).val, idx2_lt0 _⟩ : Fin 100000) k := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 512 + 1 * k.val = k.val; omega
  have h1 : ((cfg0.win 1).blk t).view.emb (ix2 k z) = ix2 k (0 : Fin 1) := by
    funext a; apply Fin.ext
    match a with
    | ⟨0, _⟩ => show win0_1.index t (0 : Fin 2) * 512 + 1 * k.val = k.val; omega
    | ⟨1, _⟩ => show win0_1.index t (1 : Fin 2) * 1 + 1 * z.val = 0; omega
  rw [h0, h1]

/-- An index of the result column is in point `t`'s block iff each coordinate is in the block's range. -/
theorem mem_blk (t : Fin cfg0.N) (i : S100000x1.Idx) :
    i ∈ ((cfg0.win 2).blk t).view.set ↔ ∀ a : Fin 2, win0_2.index t a * S5000x1.size a ≤ (i a).val
      ∧ (i a).val < win0_2.index t a * S5000x1.size a + S5000x1.size a := by
  show i ∈ ((View.whole main_v4).slice (win0_2.rect t)).set ↔ _
  rw [View.set_slice_whole, Rect.mem_set_unit]
  exact Iff.rfl

/-- Row `r` is written by point `r / 5000`. -/
theorem covered (i : S100000x1.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 1 := (i 1).isLt
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 1 ≤ (i 1).val ∧ (i 1).val < win0_2.index _ (1 : Fin 2) * 1 + 1
    rw [e5]; omega

/-- THE RESULT COLUMN after the region: `x · W` of the two operand arrays as the region found them. -/
theorem final (c : Dev nD) : (dat0 V c).arrAt 2 cfg0.N = lin V c :=
  (dat0 V c).arrAt_eq_of_cover 2 (lin V c) (fun t _ => flushed_eq V c t) covered

end Cert.KernelIdeal.Transform

end
-- ==== Proof.KernelMessages.lean ====
/-
  The second pipelined region, the elementwise message kernel: whatever the three operand arrays [25000, 128] hold when
  the region is entered, the result array ends holding their product, element by element.

  Grid point `t` (of 25) handles rows 1000 t … 1000 t + 999 of all four arrays: every window's block index is `(t, 0)`.
  The body multiplies the three blocks; the point writing row `r` is `r / 1000`, so the written blocks cover the array.
-/
import proofs.«147441_j77756087927188_2_alg».proof.Proof.Gen.KernelIdeal.Frame
import Idealize.ShloMosaic.Lib.Pipeline.Value
import Idealize.ShloMosaic.Lib.ValueIdx

set_option maxRecDepth 16384

noncomputable section

namespace Cert.KernelIdeal.Messages

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of three extended reals, left to right. -/
def mul3 (a b d : EReal) : EReal := a * b * d

/-- The product of three arrays, element by element. -/
def prodArr (A B D : S25000x128.Idx → EReal) : S25000x128.Idx → EReal := fun i => mul3 (A i) (B i) (D i)

/-- The product of the three operand arrays as the region finds them. -/
abbrev prod3 (c : Dev nD) : S25000x128.Idx → EReal := prodArr (V c main_v34) (V c main_v35) (V c main_v36)

/-- The body's arithmetic: the product of its three loaded blocks. -/
theorem pay_eq (x0 x1 x2 : Vec Ideal S1000x128 .f32) : k1_pay1 x0 x1 x2 = mulf (mulf x0 x1) x2 := by
  unfold k1_pay1
  simp only [shapeCast_self]

/-- Every window's block at point `t` is block `(t, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the product. -/
theorem flushed_eq (c : Dev nD) (t : Fin cfg1.N) :
    (dat1 V c).flushed 3 t = ((cfg1.win 3).blk t).view.read (Elt Ideal) (prod3 V c) := by
  show (cfg1.win 3).cut (grid1.coords t) ((dat1 V c).after 3 t) = _
  rw [after1_3]
  unfold out1_3
  rw [View.canon_unit_zero hz]
  simp only [View.ld_unit_zero (S := S1000x128) hz]
  rw [pay_eq]
  obtain ⟨e0, e1, e2, e3, e4, e5, e6, e7⟩ := idx_facts t
  funext j
  show mul3 (V c main_v34 (((cfg1.win 0).blk t).view.emb j)) (V c main_v35 (((cfg1.win 1).blk t).view.emb j))
      (V c main_v36 (((cfg1.win 2).blk t).view.emb j))
    = mul3 (V c main_v34 (((cfg1.win 3).blk t).view.emb j)) (V c main_v35 (((cfg1.win 3).blk t).view.emb j))
      (V c main_v36 (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 1000 + 1 * (j 0).val = win1_3.index t (0 : Fin 2) * 1000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 1000 + 1 * (j 0).val = win1_3.index t (0 : Fin 2) * 1000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 1000 + 1 * (j 0).val = win1_3.index t (0 : Fin 2) * 1000 + 1 * (j 0).val; omega
    | ⟨1, _⟩ => show win1_2.index t (1 : Fin 2) * 128 + 1 * (j 1).val = win1_3.index t (1 : Fin 2) * 128 + 1 * (j 1).val; omega
  rw [h0, h1, h2]

/-- An index of the result array is in point `t`'s block iff each coordinate is in the block's range. -/
theorem mem_blk (t : Fin cfg1.N) (i : S25000x128.Idx) :
    i ∈ ((cfg1.win 3).blk t).view.set ↔ ∀ a : Fin 2, win1_3.index t a * S1000x128.size a ≤ (i a).val
      ∧ (i a).val < win1_3.index t a * S1000x128.size a + S1000x128.size a := by
  show i ∈ ((View.whole main_v37).slice (win1_3.rect t)).set ↔ _
  rw [View.set_slice_whole, Rect.mem_set_unit]
  exact Iff.rfl

/-- Row `r` is written by point `r / 1000`. -/
theorem covered (i : S25000x128.Idx) :
    ∃ t : Fin cfg1.N, (cfg1.win 3).flush t = true ∧ i ∈ ((cfg1.win 3).blk t).view.set := by
  have hN : cfg1.N = 25 := N_1
  have hi0 : (i 0).val < 25000 := (i 0).isLt
  have hi1 : (i 1).val < 128 := (i 1).isLt
  refine ⟨⟨(i 0).val / 1000, by rw [hN]; omega⟩, flush1_3 _, ?_⟩
  rw [mem_blk]
  obtain ⟨-, -, -, -, -, -, e6, e7⟩ := idx_facts ⟨(i 0).val / 1000, by rw [hN]; omega⟩
  intro a
  match a with
  | ⟨0, _⟩ =>
    show win1_3.index _ (0 : Fin 2) * 1000 ≤ (i 0).val ∧ (i 0).val < win1_3.index _ (0 : Fin 2) * 1000 + 1000
    rw [e6]; show (i 0).val / 1000 * 1000 ≤ (i 0).val ∧ (i 0).val < (i 0).val / 1000 * 1000 + 1000; omega
  | ⟨1, _⟩ =>
    show win1_3.index _ (1 : Fin 2) * 128 ≤ (i 1).val ∧ (i 1).val < win1_3.index _ (1 : Fin 2) * 128 + 128
    rw [e7]; omega

/-- THE RESULT ARRAY after the region: the product of the three operand arrays as the region found them. -/
theorem final (c : Dev nD) : (dat1 V c).arrAt 3 cfg1.N = prod3 V c :=
  (dat1 V c).arrAt_eq_of_cover 3 (prod3 V c) (fun t _ => flushed_eq V c t) (covered)

end Cert.KernelIdeal.Messages

end
-- ==== Proof.KernelHost.lean ====
/-
  The idealized kernel's host stretches as pure functions of arrays, and those arrays read at an index.

  The program is: the two rows of the edge array as flat word arrays (first stretch of host operations); the linear
  transform `h = x · W` (first region); the degree normaliser `d = rsqrt (edge count + 1)`, the three gathers
  `d[src]`, `d[dst]`, `h[src]` laid out as [25000, 128] (second stretch); their elementwise product (second region); and the
  scatter-add of the messages at the destination words plus the diagonal term `d · d · h` (last stretch).
  Here each stretch's arithmetic is named (`edgeRow0`, `edgeRow1`, `dinvArr`, `wrapCol`, `gath`, `flatCol`, `tail`) and
  the layout operations are read at an index: a row of the edge array, a word array broadcast to a column, a gather at
  the wrapped and clamped word, a reshape [3200000] ↔ [25000, 128] as `e ↔ (e / 128, e % 128)`.
-/
import proofs.«147441_j77756087927188_2_alg».proof.Proof.KernelTransform
import proofs.«147441_j77756087927188_2_alg».proof.Proof.KernelMessages
import proofs.«147441_j77756087927188_2_alg».proof.Proof.LibGatherScatter
import proofs.«147441_j77756087927188_2_alg».proof.Proof.GcnWords
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen Cert.Gcn
open Idealize.ShloMosaic Idealize.ShloMosaic.TcCoe Idealize.SL.Sem Idealize.ShloMosaic.StableHlo
open Idealize.ShloMosaic.ValueIdx Idealize.ShloMosaic.GatherScatterIdx

/-! ## The host stretches as pure functions of arrays -/

/-- Row 0 of the edge array (the source words) as a flat array. -/
def edgeRow0 (x1 : IVec S2x3200000 32) : IVec S3200000 32 :=
  shapeCast _ (extractStridedSlice S1x3200000 ![0, 0] x1 slices_S2x3200000_S1x3200000_0_0) shapeCasts_S1x3200000_S3200000

/-- Row 1 of the edge array (the destination words) as a flat array. -/
def edgeRow1 (x1 : IVec S2x3200000 32) : IVec S3200000 32 :=
  shapeCast _ (extractStridedSlice S1x3200000 ![1, 0] x1 slices_S2x3200000_S1x3200000_1_0) shapeCasts_S1x3200000_S3200000

/-- The degree normaliser: the reciprocal square root of (the scatter-add of ones at the destination words, plus one). -/
def dinvArr (dst : IVec S3200000 32) : FVec Ideal S100000 .f32 :=
  Host.rsqrt (addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 dst)
      (broadcastInDim S3200000 ![] bcast_S_S3200000 (constant S_ .f32 0x3F800000#32)))
    (broadcastInDim S100000 ![] bcast_S_S100000 (constant S_ .f32 0x3F800000#32)))

/-- The index words a gather reads, as a column: negatives wrapped once. -/
def wrapCol (a : IVec S3200000 32) : IVec S3200000x1 32 :=
  broadcastInDim S3200000x1 ![0] bcast_S3200000_S3200000x1_0
    (select (cmpi .slt a (broadcastInDim S3200000 ![] bcast_S_S3200000 (constantI S_ 32 0#32)))
      (addi a (broadcastInDim S3200000 ![] bcast_S_S3200000 (constantI S_ 32 100000#32))) a)

/-- A gather of the node array `X` at the words `a`, laid out as [25000, 128]. -/
def gath (X : FVec Ideal S100000 .f32) (a : IVec S3200000 32) : FVec Ideal S25000x128 .f32 :=
  shapeCast _ (Host.gather gather_S100000_S3200000x1_S3200000_n_0_n_n_0_1_1 X (wrapCol a)) shapeCasts_S3200000_S25000x128

/-- The transform as a flat array. -/
def flatCol (H : FVec Ideal S100000x1 .f32) : FVec Ideal S100000 .f32 := shapeCast _ H shapeCasts_S100000x1_S100000

/-- The last stretch: the scatter-add of the messages at the destination words, plus the diagonal term. -/
def tail (dst : IVec S3200000 32) (msg : FVec Ideal S25000x128 .f32) (dinv h : FVec Ideal S100000 .f32) :
    FVec Ideal S100000 .f32 :=
  addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 dst)
      (shapeCast _ msg shapeCasts_S25000x128_S3200000))
    (mulf (mulf dinv dinv) h)

/-! ## The arrays read at an index -/

theorem edgeRow0_apply (x1 : IVec S2x3200000 32) (e : Fin 3200000) : edgeRow0 x1 (ix1 e) = x1 (ix2 (0 : Fin 2) e) := by
  unfold edgeRow0
  rw [shapeCast_apply _ shapeCasts_S1x3200000_S3200000 (ix1 e) (ix2 (0 : Fin 1) e)
    (by rw [Shape.rowMajor_val_two, Shape.rowMajor_val_one]; show 0 * 3200000 + e.val = e.val; omega)]
  exact extractStridedSlice_apply ![0, 0] x1 slices_S2x3200000_S1x3200000_0_0 (ix2 (0 : Fin 1) e) (ix2 (0 : Fin 2) e)
    (fun a => match a with
      | ⟨0, _⟩ => by show (0 : Nat) = 0 + 0; rfl
      | ⟨1, _⟩ => by show e.val = 0 + e.val; omega)

theorem edgeRow1_apply (x1 : IVec S2x3200000 32) (e : Fin 3200000) : edgeRow1 x1 (ix1 e) = x1 (ix2 (1 : Fin 2) e) := by
  unfold edgeRow1
  rw [shapeCast_apply _ shapeCasts_S1x3200000_S3200000 (ix1 e) (ix2 (0 : Fin 1) e)
    (by rw [Shape.rowMajor_val_two, Shape.rowMajor_val_one]; show 0 * 3200000 + e.val = e.val; omega)]
  exact extractStridedSlice_apply ![1, 0] x1 slices_S2x3200000_S1x3200000_1_0 (ix2 (0 : Fin 1) e) (ix2 (1 : Fin 2) e)
    (fun a => match a with
      | ⟨0, _⟩ => by show (1 : Nat) = 1 + 0; rfl
      | ⟨1, _⟩ => by show e.val = 0 + e.val; omega)

/-- A word array broadcast to a column reads the row's word. -/
theorem col_apply (a : IVec S3200000 32) (e : Fin 3200000) :
    broadcastInDim S3200000x1 ![0] bcast_S3200000_S3200000x1_0 a (ix2 e (0 : Fin 1)) = a (ix1 e) :=
  broadcastInDim_apply _ bcast_S3200000_S3200000x1_0 a (ix2 e (0 : Fin 1)) (ix1 e) (fun b => match b with
    | ⟨0, _⟩ => by show e.val = if (3200000 : Nat) = 1 then 0 else e.val; rw [if_neg (by decide)])

theorem wrapCol_apply (a : IVec S3200000 32) (e : Fin 3200000) : wrapCol a (ix2 e (0 : Fin 1)) = wrap (a (ix1 e)) := by
  unfold wrapCol
  rw [col_apply]
  rfl

theorem scatter_flat (X : FVec Ideal S100000 .f32) (I : IVec S3200000x1 32) (U : FVec Ideal S3200000 .f32) (p : Fin 100000) :
    Host.scatterAdd (F := Ideal) scatter_S100000_S3200000x1_S3200000_n_0_0_1 X I U (ix1 p)
      = X (ix1 p) + ∑ e : Fin 3200000, if (I (ix2 e (0 : Fin 1))).toInt = (p.val : Int) then U (ix1 e) else 0 :=
  scatterAdd_row_apply (N := 100000) (E := 3200000) scatter_S100000_S3200000x1_S3200000_n_0_0_1_wf X I U (ix1 p)

theorem gather_flat (X : S100000.Idx → EReal) (I : IVec S3200000x1 32) (e : Fin 3200000) :
    Host.gather gather_S100000_S3200000x1_S3200000_n_0_n_n_0_1_1 X I (ix1 e)
      = X (ix1 (clamp (I (ix2 e (0 : Fin 1))))) :=
  gather_row_apply (N := 100000) (E := 3200000) (by decide) gather_S100000_S3200000x1_S3200000_n_0_n_n_0_1_1_wf X I (ix1 e)

/-- The gathered array at edge `e`'s place: `X` at the wrapped and clamped word. -/
theorem gath_apply (X : FVec Ideal S100000 .f32) (a : IVec S3200000 32) (w : Fin 3200000 → BitVec 32)
    (ha : ∀ e : Fin 3200000, a (ix1 e) = w e) (e : Fin 3200000) :
    gath X a (ix2 (⟨e.val / 128, by omega⟩ : Fin 25000) (⟨e.val % 128, Nat.mod_lt _ (by decide)⟩ : Fin 128))
      = X (ix1 (pos (w e))) := by
  unfold gath
  rw [shapeCast_apply _ shapeCasts_S3200000_S25000x128 _ (ix1 e)
    (by rw [Shape.rowMajor_val_two, Shape.rowMajor_val_one]; show e.val = e.val / 128 * 128 + e.val % 128; omega)]
  refine (gather_flat _ _ e).trans ?_
  rewrite [wrapCol_apply, ha]
  rfl

/-- A [25000, 128] array flattened, at edge `e`. -/
theorem flatten_apply (M : FVec Ideal S25000x128 .f32) (e : Fin 3200000) :
    shapeCast S3200000 M shapeCasts_S25000x128_S3200000 (ix1 e)
      = M (ix2 (⟨e.val / 128, by omega⟩ : Fin 25000) (⟨e.val % 128, Nat.mod_lt _ (by decide)⟩ : Fin 128)) :=
  shapeCast_apply M shapeCasts_S25000x128_S3200000 (ix1 e) _
    (by rw [Shape.rowMajor_val_two, Shape.rowMajor_val_one]; show e.val / 128 * 128 + e.val % 128 = e.val; omega)

/-- The flat transform at node `p`. -/
theorem flatCol_apply (H : FVec Ideal S100000x1 .f32) (p : Fin 100000) : flatCol H (ix1 p) = H (ix2 p (0 : Fin 1)) :=
  shapeCast_apply H shapeCasts_S100000x1_S100000 (ix1 p) (ix2 p (0 : Fin 1))
    (by rw [Shape.rowMajor_val_two, Shape.rowMajor_val_one]; show p.val * 1 + 0 = p.val; omega)

/-- A constant broadcast over the nodes reads the constant. -/
theorem nodeConst_apply (b : BitVec 32) (i : S100000.Idx) :
    broadcastInDim S100000 ![] bcast_S_S100000 (constant (F := Ideal) S_ .f32 b) i = Ideal.ofBits .f32 b := rfl

/-- A constant broadcast over the edges reads the constant. -/
theorem edgeConst_apply (b : BitVec 32) (i : S3200000.Idx) :
    broadcastInDim S3200000 ![] bcast_S_S3200000 (constant (F := Ideal) S_ .f32 b) i = Ideal.ofBits .f32 b := rfl

end Cert.KernelIdeal.HostValue

end
-- ==== Proof.KernelAccum.lean ====
/-
  The two accumulating stretches of the idealized kernel read at a node: the degree normaliser, and the final
  scatter-add of the messages plus the diagonal term. Each scatter is the sum over the edges whose destination word is
  the node.
-/
import proofs.«147441_j77756087927188_2_alg».proof.Proof.KernelHost

set_option maxRecDepth 16384

noncomputable section

open scoped BigOperators

namespace Cert.KernelIdeal.HostValue

open Cert.KernelIdeal Cert.KernelIdeal.Gen Cert.Gcn
open Idealize.ShloMosaic Idealize.ShloMosaic.TcCoe Idealize.SL.Sem Idealize.ShloMosaic.StableHlo
open Idealize.ShloMosaic.ValueIdx Idealize.ShloMosaic.GatherScatterIdx

/-- The scatter-add of ones at the destination words, at node `p`: the number of edges landing on `p`. -/
theorem count_apply (dst : IVec S3200000 32) (w : Fin 3200000 → BitVec 32)
    (hd : ∀ e : Fin 3200000, dst (ix1 e) = w e) (p : Fin 100000) :
    Host.scatterAdd (F := Ideal) scatter_S100000_S3200000x1_S3200000_n_0_0_1
        (broadcastInDim S100000 ![] bcast_S_S100000 (constant S_ .f32 0x00000000#32))
        (broadcastInDim S3200000x1 ![0] bcast_S3200000_S3200000x1_0 dst)
        (broadcastInDim S3200000 ![] bcast_S_S3200000 (constant S_ .f32 0x3F800000#32)) (ix1 p)
      = Gcn.count one (fun e i => hitW (w e) i) p := by
  rewrite [scatter_flat, nodeConst_apply, Ideal.ofBits_zero_f32, zero_add]
  unfold Gcn.count
  refine Finset.sum_congr rfl fun e _ => ?_
  rewrite [col_apply, hd, edgeConst_apply]
  exact if_congr Iff.rfl rfl rfl

/-- The normaliser at node `p`, the destination words known element by element. -/
theorem dinvArr_apply (dst : IVec S3200000 32) (w : Fin 3200000 → BitVec 32)
    (hd : ∀ e : Fin 3200000, dst (ix1 e) = w e) (p : Fin 100000) :
    dinvArr dst (ix1 p) = dLoop one Ideal.rsqrt (fun e i => hitW (w e) i) p := by
  unfold dinvArr
  rewrite [hostRsqrt_apply, addf_at, count_apply dst w hd p, nodeConst_apply]
  exact dLoop_of_count one Ideal.rsqrt (fun e i => hitW (w e) i) p _ rfl

/-- The scatter-add of the messages at the destination words, at node `i`. -/
theorem msgSum_apply (dst : IVec S3200000 32) (msg : FVec Ideal S25000x128 .f32) (w : Fin 3200000 → BitVec 32)
    (hd : ∀ e : Fin 3200000, dst (ix1 e) = w e) (i : Fin 100000) :
    Host.scatterAdd (F := Ideal) scatter_S100000_S3200000x1_S3200000_n_0_0_1
        (broadcastInDim S100000 ![] bcast_S_S100000 (constant S_ .f32 0x00000000#32))
        (broadcastInDim S3200000x1 ![0] bcast_S3200000_S3200000x1_0 dst)
        (shapeCast S3200000 msg shapeCasts_S25000x128_S3200000) (ix1 i)
      = ∑ e : Fin 3200000, if hitW (w e) i
          then msg (ix2 (⟨e.val / 128, by omega⟩ : Fin 25000) (⟨e.val % 128, Nat.mod_lt _ (by decide)⟩ : Fin 128)) else 0 := by
  rewrite [scatter_flat, nodeConst_apply, Ideal.ofBits_zero_f32, zero_add]
  refine Finset.sum_congr rfl fun e _ => ?_
  rewrite [col_apply, hd, flatten_apply]
  exact if_congr Iff.rfl rfl rfl

/-- The last stretch at node `i`, the destination words known element by element. -/
theorem tail_apply (dst : IVec S3200000 32) (msg : FVec Ideal S25000x128 .f32) (dinv h : FVec Ideal S100000 .f32)
    (w : Fin 3200000 → BitVec 32) (hd : ∀ e : Fin 3200000, dst (ix1 e) = w e) (i : Fin 100000) :
    tail dst msg dinv h (ix1 i)
      = (∑ e : Fin 3200000, if hitW (w e) i
            then msg (ix2 (⟨e.val / 128, by omega⟩ : Fin 25000) (⟨e.val % 128, Nat.mod_lt _ (by decide)⟩ : Fin 128)) else 0)
        + dinv (ix1 i) * dinv (ix1 i) * h (ix1 i) := by
  unfold tail
  rw [addf_at, mulf_at, mulf_at, msgSum_apply dst msg w hd i]

end Cert.KernelIdeal.HostValue

end
-- ==== Proof.KernelRun.lean ====
/-
  The idealized kernel's run with its result named. The program is two pipelined regions among three stretches of host
  operations; the buffer contents at each boundary are a fold from the launch memory (`Gen.W0` … `Gen.W5`). Every
  weakly fair execution terminates, without a fault, with the result array at the last boundary's contents
  `Gen.W5 m ρ c main_v44` and the three argument arrays as launched.
-/
import proofs.«147441_j77756087927188_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v44) = W5 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v44 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Run

end
-- ==== Proof.KernelValue.lean ====
/-
  The idealized kernel's run ends with the result array at the specification.

  The fold of buffer contents through the program (the launch memory, then each stretch of host operations and each
  region in turn) is read buffer by buffer: the edge array's two rows after the first stretch, the transform after the
  first region, the normaliser and the three gathered arrays after the second stretch, their product after the second
  region, and the scatter-add plus diagonal term after the last stretch. Read at a node these compose to the
  specification.
-/
import proofs.«147441_j77756087927188_2_alg».proof.Proof.KernelAccum
import proofs.«147441_j77756087927188_2_alg».proof.Proof.KernelRun

set_option maxRecDepth 16384

noncomputable section

open scoped BigOperators

namespace Cert.KernelIdeal.HostValue

open Cert.KernelIdeal Cert.KernelIdeal.Gen Cert.Gcn
open Idealize.ShloMosaic Idealize.ShloMosaic.TcCoe Idealize.SL.Sem Idealize.ShloMosaic.StableHlo
open Idealize.ShloMosaic.ValueIdx Idealize.ShloMosaic.GatherScatterIdx

/-! ## The composition at a node, over arrays known only through their elements -/

/-- The transform column at a row is the specification's transform. -/
theorem linArr_apply (X : S100000x512.Idx → EReal) (W : S512x1.Idx → EReal) (p : Fin 100000) :
    Transform.linArr X W (ix2 p (0 : Fin 1)) = feat X W p := rfl

/-- With `src`, `dst` the edge array's rows and `H` the transform column: the last stretch applied to the product of
    the three gathers is the specification. -/
theorem tail_spec (x0 : S100000x512.Idx → EReal) (x1 : IVec S2x3200000 32) (x2 : S512x1.Idx → EReal)
    (src dst : IVec S3200000 32) (H : FVec Ideal S100000x1 .f32)
    (hs : ∀ e : Fin 3200000, src (ix1 e) = x1 (ix2 (0 : Fin 2) e))
    (hd : ∀ e : Fin 3200000, dst (ix1 e) = x1 (ix2 (1 : Fin 2) e))
    (hH : ∀ p : Fin 100000, H (ix2 p (0 : Fin 1)) = feat x0 x2 p) (i : Fin 100000) :
    tail dst (Messages.prodArr (gath (dinvArr dst) src) (gath (dinvArr dst) dst) (gath (flatCol H) src))
      (dinvArr dst) (flatCol H) (ix1 i) = gcnOut x0 x1 x2 i := by
  have hdinv : ∀ p : Fin 100000, dinvArr dst (ix1 p) = dLoop one Ideal.rsqrt (lands x1) p :=
    fun p => dinvArr_apply dst (fun e => x1 (ix2 (1 : Fin 2) e)) hd p
  have hh : ∀ p : Fin 100000, flatCol H (ix1 p) = feat x0 x2 p := fun p => (flatCol_apply H p).trans (hH p)
  have hmsg : ∀ e : Fin 3200000,
      Messages.prodArr (gath (dinvArr dst) src) (gath (dinvArr dst) dst) (gath (flatCol H) src)
        (ix2 (⟨e.val / 128, by omega⟩ : Fin 25000) (⟨e.val % 128, Nat.mod_lt _ (by decide)⟩ : Fin 128))
      = dLoop one Ideal.rsqrt (lands x1) (pos (x1 (ix2 (0 : Fin 2) e)))
          * dLoop one Ideal.rsqrt (lands x1) (pos (x1 (ix2 (1 : Fin 2) e))) * feat x0 x2 (pos (x1 (ix2 (0 : Fin 2) e))) := by
    intro e
    show Messages.mul3 (gath (dinvArr dst) src _) (gath (dinvArr dst) dst _) (gath (flatCol H) src _) = _
    rewrite [gath_apply (dinvArr dst) src _ hs e, gath_apply (dinvArr dst) dst _ hd e, gath_apply (flatCol H) src _ hs e,
      hdinv, hdinv, hh]
    rfl
  rewrite [tail_apply dst _ _ _ (fun e => x1 (ix2 (1 : Fin 2) e)) hd i]
  unfold gcnOut
  refine outLoop_of_parts one Ideal.rsqrt (lands x1) _ _ (feat x0 x2) i _ _ (Finset.sum_congr rfl fun e _ => ?_) ?_
  · rewrite [hmsg e]
    rfl
  · rw [hdinv, hh]

/-! ## The fold of buffer contents, boundary by boundary -/

variable (m : (ℓ : Loc nD τ sig) → Buf (Elt Ideal) ℓ) (ρ : Dev nD → PrngReg)

theorem W1_src (c : Dev nD) :
    W1 m ρ c (Proc.devRef .tc main_v1) = edgeRow0 (m ((c : Thread nD τ).loc main_arg1)) := by
  show StableHlo.after hostOps0 (W0 m ρ c) (Proc.devRef .tc main_v1) = _
  after_results
  rfl

theorem W1_dst (c : Dev nD) :
    W1 m ρ c (Proc.devRef .tc main_v3) = edgeRow1 (m ((c : Thread nD τ).loc main_arg1)) := by
  show StableHlo.after hostOps0 (W0 m ρ c) (Proc.devRef .tc main_v3) = _
  after_results
  rfl

theorem W1_x (c : Dev nD) : W1 m ρ c (Proc.devRef .tc main_arg0) = m ((c : Thread nD τ).loc main_arg0) := by
  show StableHlo.after hostOps0 (W0 m ρ c) (Proc.devRef .tc main_arg0) = _
  after_results

theorem W1_w (c : Dev nD) : W1 m ρ c (Proc.devRef .tc main_arg2) = m ((c : Thread nD τ).loc main_arg2) := by
  show StableHlo.after hostOps0 (W0 m ρ c) (Proc.devRef .tc main_arg2) = _
  after_results

/-- After the first region the transform column holds `x · W` of the launch arrays. -/
theorem W2_h (c : Dev nD) :
    W2 m ρ c (Proc.devRef .tc main_v4)
      = Transform.linArr (m ((c : Thread nD τ).loc main_arg0)) (m ((c : Thread nD τ).loc main_arg2)) := by
  refine (W2_arr m ρ c 2).trans ((Transform.final (V1 m ρ) c).trans ?_)
  show Transform.linArr (W1 m ρ c (Proc.devRef .tc main_arg0)) (W1 m ρ c (Proc.devRef .tc main_arg2)) = _
  rw [W1_x, W1_w]

theorem W2_src (c : Dev nD) :
    W2 m ρ c (Proc.devRef .tc main_v1) = edgeRow0 (m ((c : Thread nD τ).loc main_arg1)) :=
  (W2_of_ne m ρ c main_v1 (by decide)).trans (W1_src m ρ c)

theorem W2_dst (c : Dev nD) :
    W2 m ρ c (Proc.devRef .tc main_v3) = edgeRow1 (m ((c : Thread nD τ).loc main_arg1)) :=
  (W2_of_ne m ρ c main_v3 (by decide)).trans (W1_dst m ρ c)

/-! The second stretch, as the pure functions of KernelHost over the contents at its start. -/

theorem W3_dst (c : Dev nD) : W3 m ρ c (Proc.devRef .tc main_v3) = W2 m ρ c (Proc.devRef .tc main_v3) := by
  show StableHlo.after hostOps1 (W2 m ρ c) (Proc.devRef .tc main_v3) = _
  after_results_simp

theorem W3_dinv (c : Dev nD) : W3 m ρ c (Proc.devRef .tc main_v12) = dinvArr (W2 m ρ c (Proc.devRef .tc main_v3)) := by
  show StableHlo.after hostOps1 (W2 m ρ c) (Proc.devRef .tc main_v12) = _
  after_results_simp
  rfl

theorem W3_h (c : Dev nD) : W3 m ρ c (Proc.devRef .tc main_v5) = flatCol (W2 m ρ c (Proc.devRef .tc main_v4)) := by
  show StableHlo.after hostOps1 (W2 m ρ c) (Proc.devRef .tc main_v5) = _
  after_results_simp
  rfl

theorem W3_a (c : Dev nD) :
    W3 m ρ c (Proc.devRef .tc main_v34)
      = gath (dinvArr (W2 m ρ c (Proc.devRef .tc main_v3))) (W2 m ρ c (Proc.devRef .tc main_v1)) := by
  show StableHlo.after hostOps1 (W2 m ρ c) (Proc.devRef .tc main_v34) = _
  after_results_simp
  rfl

theorem W3_b (c : Dev nD) :
    W3 m ρ c (Proc.devRef .tc main_v35)
      = gath (dinvArr (W2 m ρ c (Proc.devRef .tc main_v3))) (W2 m ρ c (Proc.devRef .tc main_v3)) := by
  show StableHlo.after hostOps1 (W2 m ρ c) (Proc.devRef .tc main_v35) = _
  after_results_simp
  rfl

theorem W3_d (c : Dev nD) :
    W3 m ρ c (Proc.devRef .tc main_v36)
      = gath (flatCol (W2 m ρ c (Proc.devRef .tc main_v4))) (W2 m ρ c (Proc.devRef .tc main_v1)) := by
  show StableHlo.after hostOps1 (W2 m ρ c) (Proc.devRef .tc main_v36) = _
  after_results_simp
  rfl

/-- After the second region the message array holds the product of the three gathered arrays. -/
theorem W4_msg (c : Dev nD) :
    W4 m ρ c (Proc.devRef .tc main_v37)
      = Messages.prodArr (W3 m ρ c (Proc.devRef .tc main_v34)) (W3 m ρ c (Proc.devRef .tc main_v35))
          (W3 m ρ c (Proc.devRef .tc main_v36)) :=
  (W4_arr m ρ c 3).trans (Messages.final (V3 m ρ) c)

/-- The last stretch over the contents at its start. -/
theorem W5_out (c : Dev nD) :
    W5 m ρ c (Proc.devRef .tc main_v44)
      = tail (W4 m ρ c (Proc.devRef .tc main_v3)) (W4 m ρ c (Proc.devRef .tc main_v37))
          (W4 m ρ c (Proc.devRef .tc main_v12)) (W4 m ρ c (Proc.devRef .tc main_v5)) := by
  show StableHlo.after hostOps2 (W4 m ρ c) (Proc.devRef .tc main_v44) = _
  after_results
  rfl

/-- THE RESULT ARRAY at the end of the run is the specification of the launch arrays. -/
theorem result_eq (c : Dev nD) :
    W5 m ρ c (Proc.devRef .tc main_v44)
      = gcnArr (m ((c : Thread nD τ).loc main_arg0)) (m ((c : Thread nD τ).loc main_arg1))
          (m ((c : Thread nD τ).loc main_arg2)) := by
  funext j
  obtain ⟨i, rfl⟩ : ∃ i : Fin 100000, j = ix1 i := ⟨j 0, eq_ix1 j⟩
  rw [W5_out, W4_msg, W4_of_ne m ρ c main_v3 (by decide), W4_of_ne m ρ c main_v12 (by decide),
    W4_of_ne m ρ c main_v5 (by decide), W3_a, W3_b, W3_d, W3_dst, W3_dinv, W3_h]
  exact tail_spec _ _ _ _ _ _
    (fun e => by rewrite [W2_src]; exact edgeRow0_apply _ e)
    (fun e => by rewrite [W2_dst]; exact edgeRow1_apply _ e)
    (fun p => by rewrite [W2_h]; exact linArr_apply _ _ p) i

/-- THE RUN: every weakly fair execution terminates, without a fault, with the result array at the specification of
    the launch arrays and the arguments unchanged. -/
theorem run : θ_run defs (onTc (τ := τ) (main (F := Ideal))) ⟨m, fun _ => 0, ρ⟩ (fun r => ∀ c : Dev nD,
      r.2.mem ((c.tc : Thread nD τ).loc main_v44)
        = gcnArr (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Run.run_result m ρ)

end Cert.KernelIdeal.HostValue

end
-- ==== Proof.lean ====
/-
  `Cert.Claim`: the Pallas graph-convolution kernel against its jnp reference, over the extended reals.

  THE MATHEMATICS. A graph on 100000 nodes has 3200000 directed edges `src e → dst e`; every node also carries a
  self-loop. With `deg i` the number of edges and loops landing on `i`, `d = deg^(-1/2)` and `h = x · W` (one output
  channel), the layer's output at node `i` is the sum, over the edges and the loop landing on `i`, of
  `d (source) · d (destination) · h (source)`.
  The reference appends the 100000 loops to the edge list and scatter-adds over all 3300000 entries, guarding the
  reciprocal square root by `deg > 0`. The kernel writes the loops analytically: `deg = (edge count) + 1`, no guard,
  and the output is the edges' scatter-add plus the diagonal term `d i · d i · h i`; its two Pallas regions compute
  `h = x · W` (tiled over 20 row blocks) and the three-way elementwise product of the gathered operands (tiled over 25
  row blocks of a [25000, 128] layout).
  Both are the one function `Cert.Gcn.gcnArr` of the three argument arrays: a sum over the concatenated entries splits
  into the edges' sum plus the one loop that lands on the node (GcnWords, RefValue); the degree is a sum of non-negative
  terms plus one, hence positive, so the guard is vacuous (GcnLaw); tiling, reshapes and the matrix unit's accumulator
  are invisible at the exact instance (KernelTransform, KernelMessages, KernelHost, KernelAccum, KernelValue). Addition
  and multiplication of extended reals are associative and commutative without any finiteness, so the precondition is
  never opened. Index words are handled as the programs handle them: a gather wraps a negative word once and clamps,
  a scatter drops a word outside [0, 100000).

  The three frames are the generated frame certificates (the reference's is its run with the result dropped);
  `preserves` is trivial, the ideal pass having rewritten nothing.
-/
import proofs.«147441_j77756087927188_2_alg».proof.Defs
import proofs.«147441_j77756087927188_2_alg».proof.Proof.Gen.Kernel
import proofs.«147441_j77756087927188_2_alg».proof.Proof.Gen.Kernel.Skeleton
import proofs.«147441_j77756087927188_2_alg».proof.Proof.Gen.Kernel.Launch
import proofs.«147441_j77756087927188_2_alg».proof.Proof.Gen.Kernel.Points
import proofs.«147441_j77756087927188_2_alg».proof.Proof.Gen.Kernel.Frame
import proofs.«147441_j77756087927188_2_alg».proof.Proof.Gen.KernelIdeal
import proofs.«147441_j77756087927188_2_alg».proof.Proof.Gen.KernelIdeal.Skeleton
import proofs.«147441_j77756087927188_2_alg».proof.Proof.Gen.KernelIdeal.Launch
import proofs.«147441_j77756087927188_2_alg».proof.Proof.Gen.KernelIdeal.Points
import proofs.«147441_j77756087927188_2_alg».proof.Proof.Gen.KernelIdeal.Frame
import proofs.«147441_j77756087927188_2_alg».proof.Proof.Gen.ReferenceIdeal
import proofs.«147441_j77756087927188_2_alg».proof.Proof.Gen.Pre_finite_inputs
import proofs.«147441_j77756087927188_2_alg».proof.Proof.RefRun
import proofs.«147441_j77756087927188_2_alg».proof.Proof.RefValue
import proofs.«147441_j77756087927188_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- At the exact instance both programs end with the result array at the specification of the (agreeing) arguments. -/
theorem algebraic : Cert.algebraic_KernelIdeal_ReferenceIdeal := by
  intro m ρ m' ρ' _ hagree
  refine ⟨fun c => Cert.Gcn.gcnArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.HostValue.run m ρ, ?_⟩
  refine (θ_run Cert.ReferenceIdeal.defs _ _).mono (fun _ h c => ⟨(h c).1.trans ?_, (h c).2⟩)
    (Cert.ReferenceIdeal.ValueP.run (F := Ideal) m' ρ')
  unfold Cert.ReferenceIdeal.ValueP.res_main_v44
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
